-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_v32) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x16384x1 : Shape := ⟨3, ![1024, 16384, 1]⟩
abbrev S1024x1 : Shape := ⟨2, ![1024, 1]⟩
abbrev S_ : Shape := ⟨0, ![]⟩

class Facts : Prop where
  bcast_S_S1024x16384x1 : S_.BroadcastsInDim S1024x16384x1 (![] : Fin 0 → Fin S1024x16384x1.rank)
  reducesTo_S1024x16384x1_S_d0_1_2 : S1024x16384x1.ReducesTo [0, 1, 2] S_
  h_S_ : 0 < S_.numel
  bcast_S_S1024x1 : S_.BroadcastsInDim S1024x1 (![] : Fin 0 → Fin S1024x1.rank)
  reducesTo_S1024x1_S_d0_1 : S1024x1.ReducesTo [0, 1] S_

variable [Facts]

def fn_part1 {F : FTy → Type} [FloatOps F] (main_v13 : IVec S_ 1) (main_v16 : IVec S1024x1 1) : IVec S_ 1 :=
  let main_c_5 : IVec S_ 1 := constantI S_ 1 1#1
  let main_v17 : IVec S_ 1 := (fun x v => Host.reduce IntOp.andi x v reducesTo_S1024x1_S_d0_1 h_S_) main_v16 main_c_5
  let main_v18 : IVec S_ 1 := andi main_v13 main_v17
  main_v18

def fn {F : FTy → Type} [FloatOps F] (main_arg0 : FVec F S1024x16384x1 .f32) (main_arg1 : FVec F S1024x1 .f32) (main_arg2 : FVec F S1024x1 .f32) (main_arg3 : FVec F S1024x1 .f32) : IVec S_ 1 :=
  let main_v0 : FVec F S1024x16384x1 .f32 := Host.absf main_arg0
  let main_cst : FVec F S_ .f32 := constant S_ .f32 0x7F800000#32
  let main_v1 : FVec F S1024x16384x1 .f32 := broadcastInDim S1024x16384x1 ![] bcast_S_S1024x16384x1 main_cst
  let main_v2 : IVec S1024x16384x1 1 := cmpf .olt main_v0 main_v1
  let main_c : IVec S_ 1 := constantI S_ 1 1#1
  let main_v3 : IVec S_ 1 := (fun x v => Host.reduce IntOp.andi x v reducesTo_S1024x16384x1_S_d0_1_2 h_S_) main_v2 main_c
  let main_v4 : FVec F S1024x1 .f32 := Host.absf main_arg1
  let main_cst_0 : FVec F S_ .f32 := constant S_ .f32 0x7F800000#32
  let main_v5 : FVec F S1024x1 .f32 := broadcastInDim S1024x1 ![] bcast_S_S1024x1 main_cst_0
  let main_v6 : IVec S1024x1 1 := cmpf .olt main_v4 main_v5
  let main_c_1 : IVec S_ 1 := constantI S_ 1 1#1
  let main_v7 : IVec S_ 1 := (fun x v => Host.reduce IntOp.andi x v reducesTo_S1024x1_S_d0_1 h_S_) main_v6 main_c_1
  let main_v8 : IVec S_ 1 := andi main_v3 main_v7
  let main_v9 : FVec F S1024x1 .f32 := Host.absf main_arg2
  let main_cst_2 : FVec F S_ .f32 := constant S_ .f32 0x7F800000#32
  let main_v10 : FVec F S1024x1 .f32 := broadcastInDim S1024x1 ![] bcast_S_S1024x1 main_cst_2
  let main_v11 : IVec S1024x1 1 := cmpf .olt main_v9 main_v10
  let main_c_3 : IVec S_ 1 := constantI S_ 1 1#1
  let main_v12 : IVec S_ 1 := (fun x v => Host.reduce IntOp.andi x v reducesTo_S1024x1_S_d0_1 h_S_) main_v11 main_c_3
  let main_v13 : IVec S_ 1 := andi main_v8 main_v12
  let main_v14 : FVec F S1024x1 .f32 := Host.absf main_arg3
  let main_cst_4 : FVec F S_ .f32 := constant S_ .f32 0x7F800000#32
  let main_v15 : FVec F S1024x1 .f32 := broadcastInDim S1024x1 ![] bcast_S_S1024x1 main_cst_4
  let main_v16 : IVec S1024x1 1 := cmpf .olt main_v14 main_v15
  fn_part1 (F := F) main_v13 main_v16
-- ==== Kernel.lean ====
abbrev S1024x16384x1 : Shape := ⟨3, ![1024, 16384, 1]⟩
abbrev S1024x1 : Shape := ⟨2, ![1024, 1]⟩
abbrev S1024x16384 : Shape := ⟨2, ![1024, 16384]⟩
abbrev S1024x32768 : Shape := ⟨2, ![1024, 32768]⟩
abbrev S256x1024 : Shape := ⟨2, ![256, 1024]⟩
abbrev S256x1 : Shape := ⟨2, ![256, 1]⟩
abbrev S256x2048 : Shape := ⟨2, ![256, 2048]⟩
abbrev S256x1024x1 : Shape := ⟨3, ![256, 1024, 1]⟩
abbrev S256x1024x2 : Shape := ⟨3, ![256, 1024, 2]⟩
abbrev S1024x16384x2 : Shape := ⟨3, ![1024, 16384, 2]⟩

abbrev nBuf : Space → Nat
  | .hbm => 13
  | .vmem => 18
  | .smem => 0
  | _ => 0

abbrev bufTy : (tb : Table) → Fin (tcTables nBuf tb) → BufTy
  | .hbm, ⟨0, _⟩ => ⟨S1024x16384x1, .f32⟩
  | .hbm, ⟨1, _⟩ => ⟨S1024x1, .f32⟩
  | .hbm, ⟨2, _⟩ => ⟨S1024x1, .f32⟩
  | .hbm, ⟨3, _⟩ => ⟨S1024x1, .f32⟩
  | .hbm, ⟨4, _⟩ => ⟨S1024x16384, .f32⟩
  | .hbm, ⟨5, _⟩ => ⟨S1024x1, .f32⟩
  | .hbm, ⟨6, _⟩ => ⟨S1024x1, .f32⟩
  | .hbm, ⟨7, _⟩ => ⟨S1024x32768, .f32⟩
  | .hbm, ⟨8, _⟩ => ⟨S1024x32768, .f32⟩
  | .hbm, ⟨9, _⟩ => ⟨S1024x32768, .f32⟩
  | .hbm, ⟨10, _⟩ => ⟨S1024x16384x2, .f32⟩
  | .hbm, ⟨11, _⟩ => ⟨S1024x16384x2, .f32⟩
  | .hbm, ⟨12, _⟩ => ⟨S1024x16384x2, .f32⟩
  | .local _ .vmem, ⟨0, _⟩ => ⟨S256x1024, .f32⟩
  | .local _ .vmem, ⟨1, _⟩ => ⟨S256x1024, .f32⟩
  | .local _ .vmem, ⟨2, _⟩ => ⟨S256x1, .f32⟩
  | .local _ .vmem, ⟨3, _⟩ => ⟨S256x1, .f32⟩
  | .local _ .vmem, ⟨4, _⟩ => ⟨S256x1, .f32⟩
  | .local _ .vmem, ⟨5, _⟩ => ⟨S256x1, .f32⟩
  | .local _ .vmem, ⟨6, _⟩ => ⟨S256x1, .f32⟩
  | .local _ .vmem, ⟨7, _⟩ => ⟨S256x1, .f32⟩
  | .local _ .vmem, ⟨8, _⟩ => ⟨S256x1, .f32⟩
  | .local _ .vmem, ⟨9, _⟩ => ⟨S256x1, .f32⟩
  | .local _ .vmem, ⟨10, _⟩ => ⟨S256x1, .f32⟩
  | .local _ .vmem, ⟨11, _⟩ => ⟨S256x1, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | .local _ .vmem, ⟨17, _⟩ => ⟨S256x2048, .f32⟩
  | _, _ => ⟨S1024x16384x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  shapeCasts_S1024x16384x1_S1024x16384 : S1024x16384x1.ShapeCasts S1024x16384
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x1024 : S256x1.Broadcasts S256x1024
  shapeCasts_S256x1024_S256x1024x1 : S256x1024.ShapeCasts S256x1024x1
  concatenates_S256x1024x1_S256x1024x1_S256x1024x2_d2 : Shape.Concatenates [S256x1024x1, S256x1024x1] S256x1024x2 2
  shapeCasts_S256x1024x2_S256x2048 : S256x1024x2.ShapeCasts S256x2048
  inb_S256x2048_S256x2048_0_0 : ∀ a, (![0, 0] : Fin 2 → Nat) a + S256x2048.size a ≤ S256x2048.size a
  h_S256x2048 : 0 < S256x2048.numel
  shapeCasts_S1024x32768_S1024x16384x2 : S1024x32768.ShapeCasts S1024x16384x2
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S1024x16384.size a
  hwx0_0 : ∀ i : grid0.Coords, EltTy.bits .f32 = 32 ∨ (Rect.block (s := S1024x16384) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S1024x1.size a
  hwx0_1 : ∀ i : grid0.Coords, EltTy.bits .f32 = 32 ∨ (Rect.block (s := S1024x1) S256x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S1024x1.size a
  hwx0_2 : ∀ i : grid0.Coords, EltTy.bits .f32 = 32 ∨ (Rect.block (s := S1024x1) S256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S1024x1.size a
  hwx0_3 : ∀ i : grid0.Coords, EltTy.bits .f32 = 32 ∨ (Rect.block (s := S1024x1) S256x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S1024x1.size a
  hwx0_4 : ∀ i : grid0.Coords, EltTy.bits .f32 = 32 ∨ (Rect.block (s := S1024x1) S256x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1.size a ≤ S1024x1.size a
  hwx0_5 : ∀ i : grid0.Coords, EltTy.bits .f32 = 32 ∨ (Rect.block (s := S1024x1) S256x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x2048.size a ≤ S1024x32768.size a
  hwx0_6 : ∀ i : grid0.Coords, EltTy.bits .f32 = 32 ∨ (Rect.block (s := S1024x32768) S256x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x2048.size a ≤ S1024x32768.size a
  hwx0_7 : ∀ i : grid0.Coords, EltTy.bits .f32 = 32 ∨ (Rect.block (s := S1024x32768) S256x2048.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x2048.size a ≤ S1024x32768.size a
  hwx0_8 : ∀ i : grid0.Coords, EltTy.bits .f32 = 32 ∨ (Rect.block (s := S1024x32768) S256x2048.size (cc0_transform_8 i) (hinb0_8 i)).WholeWords (EltTy.packing .f32)

variable [Facts₀]

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S256x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S256x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3_0) S256x2048.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3_1) S256x2048.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v3_2) S256x2048.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S1024x16384x1 : Shape := ⟨3, ![1024, 16384, 1]⟩
abbrev S1024x1 : Shape := ⟨2, ![1024, 1]⟩
abbrev S1024x1x1 : Shape := ⟨3, ![1024, 1, 1]⟩
abbrev S1024x16384x2 : Shape := ⟨3, ![1024, 16384, 2]⟩

abbrev nBuf : Space → Nat
  | .hbm => 37
  | .vmem => 0
  | .smem => 0
  | _ => 0

abbrev bufTy : (tb : Table) → Fin (tcTables nBuf tb) → BufTy
  | .hbm, ⟨0, _⟩ => ⟨S1024x16384x1, .f32⟩
  | .hbm, ⟨1, _⟩ => ⟨S1024x1, .f32⟩
  | .hbm, ⟨2, _⟩ => ⟨S1024x1, .f32⟩
  | .hbm, ⟨3, _⟩ => ⟨S1024x1, .f32⟩
  | .hbm, ⟨4, _⟩ => ⟨S1024x1x1, .f32⟩
  | .hbm, ⟨5, _⟩ => ⟨S1024x1x1, .f32⟩
  | .hbm, ⟨6, _⟩ => ⟨S1024x1x1, .f32⟩
  | .hbm, ⟨7, _⟩ => ⟨S1024x16384x1, .f32⟩
  | .hbm, ⟨8, _⟩ => ⟨S1024x16384x1, .f32⟩
  | .hbm, ⟨9, _⟩ => ⟨S1024x16384x1, .f32⟩
  | .hbm, ⟨10, _⟩ => ⟨S1024x16384x1, .f32⟩
  | .hbm, ⟨11, _⟩ => ⟨S1024x16384x1, .f32⟩
  | .hbm, ⟨12, _⟩ => ⟨S1024x16384x1, .f32⟩
  | .hbm, ⟨13, _⟩ => ⟨S1024x16384x1, .f32⟩
  | .hbm, ⟨14, _⟩ => ⟨S1024x16384x1, .f32⟩
  | .hbm, ⟨15, _⟩ => ⟨S1024x16384x1, .f32⟩
  | .hbm, ⟨16, _⟩ => ⟨S1024x16384x1, .f32⟩
  | .hbm, ⟨17, _⟩ => ⟨S1024x16384x2, .f32⟩
  | .hbm, ⟨18, _⟩ => ⟨S1024x1x1, .f32⟩
  | .hbm, ⟨19, _⟩ => ⟨S1024x1x1, .f32⟩
  | .hbm, ⟨20, _⟩ => ⟨S1024x16384x1, .f32⟩
  | .hbm, ⟨21, _⟩ => ⟨S1024x16384x1, .f32⟩
  | .hbm, ⟨22, _⟩ => ⟨S1024x1x1, .f32⟩
  | .hbm, ⟨23, _⟩ => ⟨S1024x16384x1, .f32⟩
  | .hbm, ⟨24, _⟩ => ⟨S1024x16384x1, .f32⟩
  | .hbm, ⟨25, _⟩ => ⟨S1024x16384x2, .f32⟩
  | .hbm, ⟨26, _⟩ => ⟨S1024x1x1, .f32⟩
  | .hbm, ⟨27, _⟩ => ⟨S1024x1x1, .f32⟩
  | .hbm, ⟨28, _⟩ => ⟨S1024x1x1, .f32⟩
  | .hbm, ⟨29, _⟩ => ⟨S1024x16384x1, .f32⟩
  | .hbm, ⟨30, _⟩ => ⟨S1024x16384x1, .f32⟩
  | .hbm, ⟨31, _⟩ => ⟨S1024x1x1, .f32⟩
  | .hbm, ⟨32, _⟩ => ⟨S1024x1x1, .f32⟩
  | .hbm, ⟨33, _⟩ => ⟨S1024x1x1, .f32⟩
  | .hbm, ⟨34, _⟩ => ⟨S1024x16384x1, .f32⟩
  | .hbm, ⟨35, _⟩ => ⟨S1024x16384x1, .f32⟩
  | .hbm, ⟨36, _⟩ => ⟨S1024x16384x2, .f32⟩
  | _, _ => ⟨S1024x16384x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩

abbrev nD : Nat := 1
abbrev τ : Topo := Topo.v7x

variable {F : FTy → Type} [FloatOps F]

class Facts₀ : Prop where
  bcast_S1024x1_S1024x1x1_0_2 : S1024x1.BroadcastsInDim S1024x1x1 (![0, 2] : Fin 2 → Fin S1024x1x1.rank)
  bcast_S1024x1x1_S1024x16384x1_0_1_2 : S1024x1x1.BroadcastsInDim S1024x16384x1 (![0, 1, 2] : Fin 3 → Fin S1024x16384x1.rank)
  concatenates_S1024x16384x1_S1024x16384x1_S1024x16384x2_d2 : Shape.Concatenates [S1024x16384x1, S1024x16384x1] S1024x16384x2 2

variable [Facts₀]

class Facts : Prop extends Facts₀ where

variable [Facts]
-- ==== Proof.LibInterleave.lean ====
/-
  Layout lemmas for a pair of matrices interleaved along the columns.

  Two `[a, b]` matrices `A` and `B` are given a trailing unit axis, joined along it into an `[a, b, 2]` array and
  flattened row-major into `[a, 2b]`: column `2s + k` of the result holds `A` at column `s` when `k = 0` and `B`
  at column `s` when `k = 1`. Read backwards, an `[a, 2b]` matrix split row-major into `[a, b, 2]` holds at
  `(i, s, k)` the matrix's entry at column `2s + k`. Each step is stated at an index written by coordinates, general
  in the extents and in the element type; a column `[a, 1]` spread along its unit axis to `[a, b]` is here as well.
-/
import Idealize.ShloMosaic.Lib.Pipeline.Value
import Idealize.ShloMosaic.Lib.ValueIdx

namespace Idealize.ShloMosaic.Interleave

open Idealize.ShloMosaic Idealize.ShloMosaic.ValueIdx

variable {α : Type}

/-- An `[a, b]` matrix given a trailing unit axis reads, at `(i, j, u)`, the matrix at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array with its trailing unit axis dropped reads, at `(i, j)`, the array at `(i, j, 0)`. -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

/-- An `[a, b, 2]` array flattened to `[a, c]`, `c = 2b`, reads, at column `q = 2s + k`, the array at `(i, s, k)`. -/
theorem shapeCast_ab2_ac_apply {a b c : ℕ} (x : (⟨3, ![a, b, 2]⟩ : Shape).Idx → α)
    (h : (⟨3, ![a, b, 2]⟩ : Shape).ShapeCasts ⟨2, ![a, c]⟩) (hc : c = b * 2)
    (i : Fin a) (s : Fin b) (k : Fin 2) (q : Fin c) (hq : q.val = s.val * 2 + k.val) :
    shapeCast ⟨2, ![a, c]⟩ x h (ix2 i q) = x (ix3 i s k) :=
  shapeCast_apply x h _ _ (by
    rw [Shape.rowMajor_val_three, Shape.rowMajor_val_two]
    show (i.val * b + s.val) * 2 + k.val = i.val * c + q.val
    rw [hq, hc, Nat.add_mul, Nat.mul_assoc, Nat.add_assoc])

/-- An `[a, c]` matrix, `c = 2b`, split into `[a, b, 2]` reads, at `(i, s, k)`, the matrix at column `q = 2s + k`. -/
theorem shapeCast_ac_ab2_apply {a b c : ℕ} (x : (⟨2, ![a, c]⟩ : Shape).Idx → α)
    (h : (⟨2, ![a, c]⟩ : Shape).ShapeCasts ⟨3, ![a, b, 2]⟩) (hc : c = b * 2)
    (i : Fin a) (s : Fin b) (k : Fin 2) (q : Fin c) (hq : q.val = s.val * 2 + k.val) :
    shapeCast ⟨3, ![a, b, 2]⟩ x h (ix3 i s k) = x (ix2 i q) :=
  shapeCast_apply x h _ _ (by
    rw [Shape.rowMajor_val_three, Shape.rowMajor_val_two]
    show i.val * c + q.val = (i.val * b + s.val) * 2 + k.val
    rw [hq, hc, Nat.add_mul, Nat.mul_assoc, Nat.add_assoc])

/-- Two `[a, b, 1]` arrays joined along the last axis read, at `(i, j, k)`, the first at `(i, j, 0)` when `k = 0` and
    the second at `(i, j, 0)` when `k = 1`. -/
theorem concatenate_ab1_ab1_apply {a b : ℕ} (x₁ x₂ : (⟨3, ![a, b, 1]⟩ : Shape).Idx → α)
    (h : Shape.Concatenates [(⟨3, ![a, b, 1]⟩ : Shape), ⟨3, ![a, b, 1]⟩] ⟨3, ![a, b, 2]⟩ 2)
    (i : Fin a) (j : Fin b) (k : Fin 2) :
    concatenate ⟨3, ![a, b, 2]⟩ 2 [⟨⟨3, ![a, b, 1]⟩, x₁⟩, ⟨⟨3, ![a, b, 1]⟩, x₂⟩] h (ix3 i j k)
      = if k.val = 0 then x₁ (ix3 i j (0 : Fin 1)) else x₂ (ix3 i j (0 : Fin 1)) := by
  by_cases hk : k.val = 0
  · rw [if_pos hk]
    exact concatenate_pair_apply_left (2 : Fin 3) x₁ x₂ h (ix3 i j k) rfl (ix3 i j (0 : Fin 1)) (fun d => match d with
      | ⟨0, _⟩ => rfl
      | ⟨1, _⟩ => rfl
      | ⟨2, _⟩ => hk.symm)
  · rw [if_neg hk]
    have hk1 : k.val = 1 := by omega
    exact concatenate_pair_apply_right (2 : Fin 3) x₁ x₂ h (ix3 i j k) rfl rfl (ix3 i j (0 : Fin 1)) (fun d hd => match d, hd with
      | ⟨0, _⟩, _ => rfl
      | ⟨1, _⟩, _ => rfl
      | ⟨2, _⟩, hd => absurd rfl hd) (by show 0 + 1 = k.val; omega)

/-- THE INTERLEAVE: `A` and `B` given a trailing unit axis, joined along it and flattened, read at column `q = 2s + k`
    as `A` at column `s` when `k = 0` and `B` at column `s` when `k = 1`. -/
theorem interleave_apply {a b c : ℕ} (A B : (⟨2, ![a, b]⟩ : Shape).Idx → α)
    (h1 : (⟨2, ![a, b]⟩ : Shape).ShapeCasts ⟨3, ![a, b, 1]⟩)
    (hcat : Shape.Concatenates [(⟨3, ![a, b, 1]⟩ : Shape), ⟨3, ![a, b, 1]⟩] ⟨3, ![a, b, 2]⟩ 2)
    (h2 : (⟨3, ![a, b, 2]⟩ : Shape).ShapeCasts ⟨2, ![a, c]⟩) (hc : c = b * 2)
    (i : Fin a) (s : Fin b) (k : Fin 2) (q : Fin c) (hq : q.val = s.val * 2 + k.val) :
    shapeCast ⟨2, ![a, c]⟩ (concatenate ⟨3, ![a, b, 2]⟩ 2
        [⟨⟨3, ![a, b, 1]⟩, shapeCast ⟨3, ![a, b, 1]⟩ A h1⟩, ⟨⟨3, ![a, b, 1]⟩, shapeCast ⟨3, ![a, b, 1]⟩ B h1⟩] hcat) h2 (ix2 i q)
      = if k.val = 0 then A (ix2 i s) else B (ix2 i s) := by
  rw [shapeCast_ab2_ac_apply _ h2 hc i s k q hq, concatenate_ab1_ab1_apply, shapeCast_ab_ab1_apply, shapeCast_ab_ab1_apply]

/-- A column `[a, 1]` spread along its unit axis to `[a, b]` reads, at `(i, j)`, the column at row `i`. -/
theorem broadcastTo_a1_ab_apply {a b : ℕ} (x : (⟨2, ![a, 1]⟩ : Shape).Idx → α)
    (h : (⟨2, ![a, 1]⟩ : Shape).Broadcasts ⟨2, ![a, b]⟩) (i : Fin a) (j : Fin b) :
    broadcastTo ⟨2, ![a, b]⟩ x h (ix2 i j) = x (ix2 i (0 : Fin 1)) :=
  broadcastTo_apply x h _ _ (fun d => match d with
    | ⟨0, _⟩ => by
        have hi := i.isLt
        show i.val = if a = 1 then 0 else i.val
        split <;> omega
    | ⟨1, _⟩ => by
        show (0 : ℕ) = if (1 : ℕ) = 1 then 0 else j.val
        rw [if_pos rfl])

end Idealize.ShloMosaic.Interleave
-- ==== Proof.Motion.lean ====
/-
  The mathematics both programs compute: uniform circular motion, sampled.

  Body `b` moves on a circle of radius `r` with angular velocity `w` from the initial angle `th`; at time `t` its
  angle is `w · t + th`, and its position, velocity and acceleration are
      q = r · (cos, sin),   v = (r · w) · (−sin, cos),   a = −((r · w) · w) · (cos, sin)
  of that angle. Each result is an array [bodies, times, 2], the last axis the two components. All of it is read on the
  extended reals; the only law used between the two programs is `(−x) · y = −(x · y)`, which holds there without any
  finiteness, so nothing below asks the inputs to be finite.

  Also here: the same array laid out with the component interleaved into the time axis ([bodies, 2 · times], column
  `2τ + k` holding component `k` at time `τ`), and that splitting the long axis back gives the array by coordinates.
-/
import Idealize.ShloMosaic.PureOps.Ideal
import Idealize.ShloMosaic.PureOps.Ideal.Laws
import Idealize.ShloMosaic.Lib.ValueIdx
import proofs.«136284_j14250701488835_2_alg».proof.Proof.LibInterleave

noncomputable section

namespace Cert.Motion

open Idealize.ShloMosaic Idealize.ShloMosaic.ValueIdx Idealize.ShloMosaic.Interleave

/-- The angle at time `t`. -/
def angle (w t th : EReal) : EReal := w * t + th

/-- Component `k` of the position: `r · cos` and `r · sin` of the angle. -/
def pos (r w t th : EReal) (k : Fin 2) : EReal :=
  if k.val = 0 then r * Ideal.cos (angle w t th) else r * Ideal.sin (angle w t th)

/-- Component `k` of the velocity from the product `rw = r · w`: `−rw · sin` and `rw · cos` of the angle. -/
def vel (rw w t th : EReal) (k : Fin 2) : EReal :=
  if k.val = 0 then -rw * Ideal.sin (angle w t th) else rw * Ideal.cos (angle w t th)

/-- Component `k` of the acceleration from the product `rww = (r · w) · w`: `−rww · cos` and `−rww · sin` of the angle. -/
def acc (rww w t th : EReal) (k : Fin 2) : EReal :=
  if k.val = 0 then -rww * Ideal.cos (angle w t th) else -rww * Ideal.sin (angle w t th)

/-! ## The three results by coordinates -/

section Arrays

variable (T : (⟨3, ![1024, 16384, 1]⟩ : Shape).Idx → EReal) (R Th W : (⟨2, ![1024, 1]⟩ : Shape).Idx → EReal)

/-- Position of body `b` at time index `τ`, component `k`. -/
def posAt (b : Fin 1024) (τ : Fin 16384) (k : Fin 2) : EReal :=
  pos (R (ix2 b (0 : Fin 1))) (W (ix2 b (0 : Fin 1))) (T (ix3 b τ (0 : Fin 1))) (Th (ix2 b (0 : Fin 1))) k

/-- Velocity of body `b` at time index `τ`, component `k`. -/
def velAt (b : Fin 1024) (τ : Fin 16384) (k : Fin 2) : EReal :=
  vel (R (ix2 b (0 : Fin 1)) * W (ix2 b (0 : Fin 1))) (W (ix2 b (0 : Fin 1))) (T (ix3 b τ (0 : Fin 1))) (Th (ix2 b (0 : Fin 1))) k

/-- Acceleration of body `b` at time index `τ`, component `k`. -/
def accAt (b : Fin 1024) (τ : Fin 16384) (k : Fin 2) : EReal :=
  acc (R (ix2 b (0 : Fin 1)) * W (ix2 b (0 : Fin 1)) * W (ix2 b (0 : Fin 1))) (W (ix2 b (0 : Fin 1))) (T (ix3 b τ (0 : Fin 1)))
    (Th (ix2 b (0 : Fin 1))) k

end Arrays

/-! ## Two layouts of an array given by coordinates -/

/-- The array [1024, 16384, 2] with entry `E b τ k` at `(b, τ, k)`. -/
def cube (E : Fin 1024 → Fin 16384 → Fin 2 → EReal) : (⟨3, ![1024, 16384, 2]⟩ : Shape).Idx → EReal :=
  fun i => E (i 0) (i 1) (i 2)

/-- The same entries with the component interleaved into the time axis: [1024, 32768], column `2τ + k`. -/
def flat (E : Fin 1024 → Fin 16384 → Fin 2 → EReal) : (⟨2, ![1024, 32768]⟩ : Shape).Idx → EReal :=
  fun j => E (j 0) ⟨(j 1).val / 2, by have h : (j 1).val < 32768 := (j 1).isLt; omega⟩
    ⟨(j 1).val % 2, by omega⟩

/-- The interleaved layout at row `b` and column `q = 2τ + k` is the entry `(b, τ, k)`. -/
theorem flat_apply (E : Fin 1024 → Fin 16384 → Fin 2 → EReal) (b : Fin 1024) (τ : Fin 16384) (k : Fin 2) (q : Fin 32768)
    (hq : q.val = τ.val * 2 + k.val) : flat E (ix2 b q) = E b τ k := by
  have hk := k.isLt
  show E b ⟨q.val / 2, _⟩ ⟨q.val % 2, _⟩ = E b τ k
  congr 1
  · exact Fin.ext (by show q.val / 2 = τ.val; omega)
  · exact Fin.ext (by show q.val % 2 = k.val; omega)

/-- Splitting the long axis of the interleaved layout back into (time, component) gives the array by coordinates. -/
theorem shapeCast_flat (E : Fin 1024 → Fin 16384 → Fin 2 → EReal)
    (h : (⟨2, ![1024, 32768]⟩ : Shape).ShapeCasts ⟨3, ![1024, 16384, 2]⟩) :
    shapeCast ⟨3, ![1024, 16384, 2]⟩ (flat E) h = cube E := by
  funext i
  obtain ⟨b, τ, k, rfl⟩ : ∃ (b : Fin 1024) (τ : Fin 16384) (k : Fin 2), i = ix3 b τ k := ⟨i 0, i 1, i 2, eq_ix3 i⟩
  have hk := k.isLt
  rw [shapeCast_ac_ab2_apply (flat E) h rfl b τ k ⟨τ.val * 2 + k.val, by omega⟩ rfl, flat_apply E b τ k _ rfl]
  rfl

/-! ## The sign of a product -/

/-- The reference negates the radius before multiplying by the angular velocity; the kernel negates the product. -/
theorem neg_mul_eq (r w : EReal) : -r * w = -(r * w) := neg_mul r w

theorem neg_mul_mul_eq (r w : EReal) : -r * w * w = -(r * w * w) := by rw [neg_mul, neg_mul]

end Cert.Motion

end
-- ==== Proof.KernelBody.lean ====
/-
  What the kernel's body stores, entry by entry.

  The body holds one [256, 1024] block of times `x0` and [256, 1] columns for the radius, the initial angle, the angular
  velocity and the two products `r · w` and `(r · w) · w`. It forms the angle `w · t + th` entrywise, takes its cosine and
  sine, scales them by a column, and interleaves the two components along the columns: the stored [256, 2048] block
  holds at column `q = 2s + k` component `k` at time column `s`. The negations are `0 − x`.
-/
import proofs.«136284_j14250701488835_2_alg».proof.Proof.Gen.KernelIdeal.Skeleton
import proofs.«136284_j14250701488835_2_alg».proof.Proof.Motion
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx Idealize.ShloMosaic.Interleave
open Cert.Motion

/-- The angle block at row `p`, time column `s`. -/
theorem angle_apply (x0 : Vec Ideal S256x1024 .f32) (x2 x3 : Vec Ideal S256x1 .f32) (p : Fin 256) (s : Fin 1024) :
    k0_pay3 (F := Ideal) x0 x2 x3 (ix2 p s)
      = angle (x3 (ix2 p (0 : Fin 1))) (x0 (ix2 p s)) (x2 (ix2 p (0 : Fin 1))) := by
  unfold k0_pay3 angle
  rw [addf_apply, mulf_apply, broadcastTo_a1_ab_apply, broadcastTo_a1_ab_apply, shapeCast_self]

/-- Its cosine. -/
theorem cos_apply (x0 : Vec Ideal S256x1024 .f32) (x2 x3 : Vec Ideal S256x1 .f32) (p : Fin 256) (s : Fin 1024) :
    k0_pay4 (F := Ideal) x0 x2 x3 (ix2 p s)
      = Ideal.cos (angle (x3 (ix2 p (0 : Fin 1))) (x0 (ix2 p s)) (x2 (ix2 p (0 : Fin 1)))) := by
  unfold k0_pay4
  show Ideal.cos (k0_pay3 (F := Ideal) x0 x2 x3 (ix2 p s)) = _
  rw [angle_apply]

/-- Its sine. -/
theorem sin_apply (x0 : Vec Ideal S256x1024 .f32) (x2 x3 : Vec Ideal S256x1 .f32) (p : Fin 256) (s : Fin 1024) :
    k0_pay5 (F := Ideal) x0 x2 x3 (ix2 p s)
      = Ideal.sin (angle (x3 (ix2 p (0 : Fin 1))) (x0 (ix2 p s)) (x2 (ix2 p (0 : Fin 1)))) := by
  unfold k0_pay5
  show Ideal.sin (k0_pay3 (F := Ideal) x0 x2 x3 (ix2 p s)) = _
  rw [angle_apply]

/-- A negated column spread over the block: `0 − x` at row `p`. -/
theorem neg_col_apply (x : FVec Ideal S256x1 .f32) (p : Fin 256) (s : Fin 1024) :
    broadcastTo S256x1024 (subf (broadcast S256x1 (Scalar.ofBits (F := Ideal) .f32 0x00000000#32)) x) broadcasts_S256x1_S256x1024 (ix2 p s)
      = -(x (ix2 p (0 : Fin 1))) := by
  rw [broadcastTo_a1_ab_apply, subf_apply, broadcast_apply]
  show Ideal.ofBits .f32 0x00000000#32 - x (ix2 p (0 : Fin 1)) = _
  rw [Ideal.ofBits_zero_f32, zero_sub]

/-- THE POSITION BLOCK: column `q = 2s + k` of row `p` holds component `k` of the position at time column `s`. -/
theorem pos_apply (x0 : Vec Ideal S256x1024 .f32) (x1 x2 x3 : Vec Ideal S256x1 .f32)
    (p : Fin 256) (s : Fin 1024) (k : Fin 2) (q : Fin 2048) (hq : q.val = s.val * 2 + k.val) :
    k0_pay6 (F := Ideal) x0 x1 x2 x3 (ix2 p q)
      = pos (x1 (ix2 p (0 : Fin 1))) (x3 (ix2 p (0 : Fin 1))) (x0 (ix2 p s)) (x2 (ix2 p (0 : Fin 1))) k := by
  unfold k0_pay6 pos
  rw [interleave_apply _ _ _ _ _ rfl p s k q hq, mulf_apply, mulf_apply, broadcastTo_a1_ab_apply, cos_apply, sin_apply]

/-- THE VELOCITY BLOCK, from the column `x4` of products `r · w`. -/
theorem vel_apply (x0 : Vec Ideal S256x1024 .f32) (x2 x3 x4 : Vec Ideal S256x1 .f32)
    (p : Fin 256) (s : Fin 1024) (k : Fin 2) (q : Fin 2048) (hq : q.val = s.val * 2 + k.val) :
    k0_pay7 (F := Ideal) x0 x2 x3 x4 (ix2 p q)
      = vel (x4 (ix2 p (0 : Fin 1))) (x3 (ix2 p (0 : Fin 1))) (x0 (ix2 p s)) (x2 (ix2 p (0 : Fin 1))) k := by
  unfold k0_pay7 vel
  rw [interleave_apply _ _ _ _ _ rfl p s k q hq, mulf_apply, mulf_apply, neg_col_apply, broadcastTo_a1_ab_apply,
    cos_apply, sin_apply, shapeCast_self]

/-- THE ACCELERATION BLOCK, from the column `x5` of products `(r · w) · w`. -/
theorem acc_apply (x0 : Vec Ideal S256x1024 .f32) (x2 x3 x5 : Vec Ideal S256x1 .f32)
    (p : Fin 256) (s : Fin 1024) (k : Fin 2) (q : Fin 2048) (hq : q.val = s.val * 2 + k.val) :
    k0_pay1 (F := Ideal) (k0_pay2 x5) (k0_pay4 x0 x2 x3) (k0_pay5 x0 x2 x3) (k0_pay8 x5) (ix2 p q)
      = acc (x5 (ix2 p (0 : Fin 1))) (x3 (ix2 p (0 : Fin 1))) (x0 (ix2 p s)) (x2 (ix2 p (0 : Fin 1))) k := by
  unfold k0_pay1 k0_pay8 k0_pay2 acc
  rw [interleave_apply _ _ _ _ _ rfl p s k q hq, mulf_apply, mulf_apply, neg_col_apply,
    cos_apply, sin_apply, shapeCast_self]

end Cert.KernelIdeal.Body

end
-- ==== Proof.KernelBlocks.lean ====
/-
  From blocks to arrays: what the region leaves in its three output arrays.

  The grid is 4 × 16; point `t` is at grid position `(t / 16, t mod 16)`. There the body sees rows
  `256 · (t / 16) …` of every input — times `1024 · (t mod 16) …` of the time matrix — and its three stored blocks go to
  rows `256 · (t / 16) …`, columns `2048 · (t mod 16) …` of the three [1024, 32768] output arrays. Column
  `2048 · J + 2s + k` is `2 · (1024 · J + s) + k`: component `k` at time `1024 · J + s`. So each point writes its block of
  ONE array — position, velocity or acceleration in the interleaved layout — and the blocks tile the array.
  The host operations before the region drop the time array's unit axis and form the columns `r · w` and `(r · w) · w`.
-/
import proofs.«136284_j14250701488835_2_alg».proof.Proof.Gen.KernelIdeal.Frame
import proofs.«136284_j14250701488835_2_alg».proof.Proof.KernelBody
import Idealize.ShloMosaic.Lib.Pipeline.Value
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.Pipeline (Dat)
open Idealize.ShloMosaic.StableHlo
open Idealize.ShloMosaic.ValueIdx Idealize.ShloMosaic.Interleave Cert.Motion Cert.KernelIdeal.Body

variable (m : (ℓ : Loc nD τ sig) → Buf (Elt Ideal) ℓ) (ρ : Dev nD → PrngReg)

/-- The four argument arrays as launched on core `c`: times, radii, initial angles, angular velocities. -/
abbrev argT (c : Dev nD) : (⟨3, ![1024, 16384, 1]⟩ : Shape).Idx → EReal := m ((c : Thread nD τ).loc main_arg0)
abbrev argR (c : Dev nD) : (⟨2, ![1024, 1]⟩ : Shape).Idx → EReal := m ((c : Thread nD τ).loc main_arg1)
abbrev argTh (c : Dev nD) : (⟨2, ![1024, 1]⟩ : Shape).Idx → EReal := m ((c : Thread nD τ).loc main_arg2)
abbrev argW (c : Dev nD) : (⟨2, ![1024, 1]⟩ : Shape).Idx → EReal := m ((c : Thread nD τ).loc main_arg3)

/-! ## One entry of a stored block against the array it is a block of -/

section Point

variable (T : (⟨3, ![1024, 16384, 1]⟩ : Shape).Idx → EReal) (R Th W : (⟨2, ![1024, 1]⟩ : Shape).Idx → EReal)
variable (x0 : Vec Ideal S256x1024 .f32) (x1 x2 x3 x4 x5 : Vec Ideal S256x1 .f32) (I J : ℕ) (hI : I < 4) (hJ : J < 16)

/-- The position block whose inputs are rows `256 I …`, times `1024 J …` of the arrays, at its entry `y`, is the position
    array in the interleaved layout at row `256 I + y₀`, column `2048 J + y₁`. -/
theorem pos_point
    (h0 : ∀ (p : Fin 256) (s : Fin 1024), x0 (ix2 p s) = T (ix3 (⟨I * 256 + p.val, by omega⟩ : Fin 1024) (⟨J * 1024 + s.val, by omega⟩ : Fin 16384) (0 : Fin 1)))
    (h1 : ∀ p : Fin 256, x1 (ix2 p (0 : Fin 1)) = R (ix2 (⟨I * 256 + p.val, by omega⟩ : Fin 1024) (0 : Fin 1)))
    (h2 : ∀ p : Fin 256, x2 (ix2 p (0 : Fin 1)) = Th (ix2 (⟨I * 256 + p.val, by omega⟩ : Fin 1024) (0 : Fin 1)))
    (h3 : ∀ p : Fin 256, x3 (ix2 p (0 : Fin 1)) = W (ix2 (⟨I * 256 + p.val, by omega⟩ : Fin 1024) (0 : Fin 1)))
    (y : S256x2048.Idx) (j : S1024x32768.Idx) (hj0 : (j 0).val = I * 256 + (y 0).val) (hj1 : (j 1).val = J * 2048 + (y 1).val) :
    k0_pay6 (F := Ideal) x0 x1 x2 x3 y = flat (posAt T R Th W) j := by
  obtain ⟨p, q, rfl⟩ : ∃ (p : Fin 256) (q : Fin 2048), y = ix2 p q := ⟨y 0, y 1, eq_ix2 y⟩
  have hlt : I * 256 + p.val < 1024 := by have hp := p.isLt; clear hj0 hj1; omega
  obtain ⟨b, q', rfl⟩ : ∃ (b : Fin 1024) (q' : Fin 32768), j = ix2 b q' := ⟨j 0, j 1, eq_ix2 j⟩
  have hq' : q'.val = J * 2048 + q.val := hj1
  have hq := q.isLt
  obtain rfl : b = ⟨I * 256 + p.val, hlt⟩ := Fin.ext hj0
  rw [pos_apply x0 x1 x2 x3 p ⟨q.val / 2, by omega⟩ ⟨q.val % 2, by omega⟩ q (by show q.val = q.val / 2 * 2 + q.val % 2; omega),
    flat_apply _ _ ⟨J * 1024 + q.val / 2, by omega⟩ ⟨q.val % 2, by omega⟩ q' (by show q'.val = (J * 1024 + q.val / 2) * 2 + q.val % 2; omega)]
  unfold posAt
  rw [h0, h1, h2, h3]

/-- The same for the velocity block, from the column `x4` of products `r · w`. -/
theorem vel_point
    (h0 : ∀ (p : Fin 256) (s : Fin 1024), x0 (ix2 p s) = T (ix3 (⟨I * 256 + p.val, by omega⟩ : Fin 1024) (⟨J * 1024 + s.val, by omega⟩ : Fin 16384) (0 : Fin 1)))
    (h2 : ∀ p : Fin 256, x2 (ix2 p (0 : Fin 1)) = Th (ix2 (⟨I * 256 + p.val, by omega⟩ : Fin 1024) (0 : Fin 1)))
    (h3 : ∀ p : Fin 256, x3 (ix2 p (0 : Fin 1)) = W (ix2 (⟨I * 256 + p.val, by omega⟩ : Fin 1024) (0 : Fin 1)))
    (h4 : ∀ p : Fin 256, x4 (ix2 p (0 : Fin 1)) = R (ix2 (⟨I * 256 + p.val, by omega⟩ : Fin 1024) (0 : Fin 1)) * W (ix2 (⟨I * 256 + p.val, by omega⟩ : Fin 1024) (0 : Fin 1)))
    (y : S256x2048.Idx) (j : S1024x32768.Idx) (hj0 : (j 0).val = I * 256 + (y 0).val) (hj1 : (j 1).val = J * 2048 + (y 1).val) :
    k0_pay7 (F := Ideal) x0 x2 x3 x4 y = flat (velAt T R Th W) j := by
  obtain ⟨p, q, rfl⟩ : ∃ (p : Fin 256) (q : Fin 2048), y = ix2 p q := ⟨y 0, y 1, eq_ix2 y⟩
  have hlt : I * 256 + p.val < 1024 := by have hp := p.isLt; clear hj0 hj1; omega
  obtain ⟨b, q', rfl⟩ : ∃ (b : Fin 1024) (q' : Fin 32768), j = ix2 b q' := ⟨j 0, j 1, eq_ix2 j⟩
  have hq' : q'.val = J * 2048 + q.val := hj1
  have hq := q.isLt
  obtain rfl : b = ⟨I * 256 + p.val, hlt⟩ := Fin.ext hj0
  rw [vel_apply x0 x2 x3 x4 p ⟨q.val / 2, by omega⟩ ⟨q.val % 2, by omega⟩ q (by show q.val = q.val / 2 * 2 + q.val % 2; omega),
    flat_apply _ _ ⟨J * 1024 + q.val / 2, by omega⟩ ⟨q.val % 2, by omega⟩ q' (by show q'.val = (J * 1024 + q.val / 2) * 2 + q.val % 2; omega)]
  unfold velAt
  rw [h0, h2, h3, h4]

/-- The same for the acceleration block, from the column `x5` of products `(r · w) · w`. -/
theorem acc_point
    (h0 : ∀ (p : Fin 256) (s : Fin 1024), x0 (ix2 p s) = T (ix3 (⟨I * 256 + p.val, by omega⟩ : Fin 1024) (⟨J * 1024 + s.val, by omega⟩ : Fin 16384) (0 : Fin 1)))
    (h2 : ∀ p : Fin 256, x2 (ix2 p (0 : Fin 1)) = Th (ix2 (⟨I * 256 + p.val, by omega⟩ : Fin 1024) (0 : Fin 1)))
    (h3 : ∀ p : Fin 256, x3 (ix2 p (0 : Fin 1)) = W (ix2 (⟨I * 256 + p.val, by omega⟩ : Fin 1024) (0 : Fin 1)))
    (h5 : ∀ p : Fin 256, x5 (ix2 p (0 : Fin 1)) = R (ix2 (⟨I * 256 + p.val, by omega⟩ : Fin 1024) (0 : Fin 1)) * W (ix2 (⟨I * 256 + p.val, by omega⟩ : Fin 1024) (0 : Fin 1)) * W (ix2 (⟨I * 256 + p.val, by omega⟩ : Fin 1024) (0 : Fin 1)))
    (y : S256x2048.Idx) (j : S1024x32768.Idx) (hj0 : (j 0).val = I * 256 + (y 0).val) (hj1 : (j 1).val = J * 2048 + (y 1).val) :
    k0_pay1 (F := Ideal) (k0_pay2 x5) (k0_pay4 x0 x2 x3) (k0_pay5 x0 x2 x3) (k0_pay8 x5) y = flat (accAt T R Th W) j := by
  obtain ⟨p, q, rfl⟩ : ∃ (p : Fin 256) (q : Fin 2048), y = ix2 p q := ⟨y 0, y 1, eq_ix2 y⟩
  have hlt : I * 256 + p.val < 1024 := by have hp := p.isLt; clear hj0 hj1; omega
  obtain ⟨b, q', rfl⟩ : ∃ (b : Fin 1024) (q' : Fin 32768), j = ix2 b q' := ⟨j 0, j 1, eq_ix2 j⟩
  have hq' : q'.val = J * 2048 + q.val := hj1
  have hq := q.isLt
  obtain rfl : b = ⟨I * 256 + p.val, hlt⟩ := Fin.ext hj0
  rw [acc_apply x0 x2 x3 x5 p ⟨q.val / 2, by omega⟩ ⟨q.val % 2, by omega⟩ q (by show q.val = q.val / 2 * 2 + q.val % 2; omega),
    flat_apply _ _ ⟨J * 1024 + q.val / 2, by omega⟩ ⟨q.val % 2, by omega⟩ q' (by show q'.val = (J * 1024 + q.val / 2) * 2 + q.val % 2; omega)]
  unfold accAt
  rw [h0, h2, h3, h5]

end Point

/-! ## The arrays the region finds: the host operations before it -/

/-- The time matrix is the time array with its unit axis dropped. -/
theorem V_main_v0 (c : Dev nD) :
    (V m c main_v0 : S1024x16384.Idx → EReal) = shapeCast S1024x16384 (argT m c) shapeCasts_S1024x16384x1_S1024x16384 := by
  show StableHlo.after hostOps0 (fun b => m (c, b)) (Proc.devRef .tc main_v0) = _
  after_results
  rfl

/-- The column of products `r · w`. -/
theorem V_main_v1 (c : Dev nD) :
    (V m c main_v1 : S1024x1.Idx → EReal) = mulf (F := Ideal) (s := S1024x1) (φ := .f32) (argR m c) (argW m c) := by
  show StableHlo.after hostOps0 (fun b => m (c, b)) (Proc.devRef .tc main_v1) = _
  after_results

/-- The column of products `(r · w) · w`. -/
theorem V_main_v2 (c : Dev nD) :
    (V m c main_v2 : S1024x1.Idx → EReal)
      = mulf (F := Ideal) (s := S1024x1) (φ := .f32) (mulf (F := Ideal) (s := S1024x1) (φ := .f32) (argR m c) (argW m c)) (argW m c) := by
  show StableHlo.after hostOps0 (fun b => m (c, b)) (Proc.devRef .tc main_v2) = _
  after_results

/-! ## The index maps over the grid -/

theorem zero_offsets : (![0, 0] : Fin 2 → Nat) = fun _ => 0 := funext fun a => by fin_cases a <;> rfl

/-- The grid has 64 points. -/
theorem point_lt (t : Fin cfg0.N) : t.val < 64 := Nat.lt_of_lt_of_eq t.isLt N_0

/-- The printed index maps, decided over the 64 points: point `t` is at grid position `(t / 16, t mod 16)`; the time
    matrix and the three outputs move with both coordinates, the five columns with the first only. -/
theorem grid_position : ∀ t : Fin cfg0.N,
    win0_0.index t (0 : Fin 2) = t.val / 16 ∧ win0_0.index t (1 : Fin 2) = t.val % 16
    ∧ win0_1.index t (0 : Fin 2) = t.val / 16 ∧ win0_1.index t (1 : Fin 2) = 0
    ∧ win0_2.index t (0 : Fin 2) = t.val / 16 ∧ win0_2.index t (1 : Fin 2) = 0
    ∧ win0_3.index t (0 : Fin 2) = t.val / 16 ∧ win0_3.index t (1 : Fin 2) = 0
    ∧ win0_4.index t (0 : Fin 2) = t.val / 16 ∧ win0_4.index t (1 : Fin 2) = 0
    ∧ win0_5.index t (0 : Fin 2) = t.val / 16 ∧ win0_5.index t (1 : Fin 2) = 0
    ∧ win0_6.index t (0 : Fin 2) = t.val / 16 ∧ win0_6.index t (1 : Fin 2) = t.val % 16
    ∧ win0_7.index t (0 : Fin 2) = t.val / 16 ∧ win0_7.index t (1 : Fin 2) = t.val % 16
    ∧ win0_8.index t (0 : Fin 2) = t.val / 16 ∧ win0_8.index t (1 : Fin 2) = t.val % 16 :=
  (by decide +kernel : ∀ t : Fin grid0.N, _)

/-! ## The input blocks read where the grid position says -/

/-- The time block at point `t`: rows `256 · (t / 16) …`, times `1024 · (t mod 16) …` of the time array. -/
theorem time_blk (c : Dev nD) (t : Fin cfg0.N) (ht : t.val < 64) (p : Fin 256) (s : Fin 1024) :
    iblk m c 0 t (ix2 p s) = (argT m c) (ix3 (⟨t.val / 16 * 256 + p.val, by omega⟩ : Fin 1024) (⟨t.val % 16 * 1024 + s.val, by omega⟩ : Fin 16384) (0 : Fin 1)) := by
  obtain ⟨e00, e01, e10, e11, e20, e21, e30, e31, e40, e41, e50, e51, e60, e61, e70, e71, e80, e81⟩ := grid_position t
  show V m c main_v0 (((cfg0.win 0).blk t).view.emb (ix2 p s)) = _
  have he : ((cfg0.win 0).blk t).view.emb (ix2 p s) = ix2 (⟨t.val / 16 * 256 + p.val, by omega⟩ : Fin 1024) (⟨t.val % 16 * 1024 + s.val, by omega⟩ : Fin 16384) := by
    funext a; apply Fin.ext
    match a with
    | ⟨0, _⟩ => show win0_0.index t (0 : Fin 2) * 256 + 1 * p.val = t.val / 16 * 256 + p.val; omega
    | ⟨1, _⟩ => show win0_0.index t (1 : Fin 2) * 1024 + 1 * s.val = t.val % 16 * 1024 + s.val; omega
  rw [he, V_main_v0, shapeCast_ab1_ab_apply]

/-- Window 1's block at point `t` holds rows `256 · (t / 16) …` of its one-column array. -/
theorem emb_col1 (t : Fin cfg0.N) (ht : t.val < 64) (p : Fin 256) :
    ((cfg0.win 1).blk t).view.emb (ix2 p (0 : Fin 1)) = ix2 (⟨t.val / 16 * 256 + p.val, by omega⟩ : Fin 1024) (0 : Fin 1) := by
  obtain ⟨e00, e01, e10, e11, e20, e21, e30, e31, e40, e41, e50, e51, e60, e61, e70, e71, e80, e81⟩ := grid_position t
  funext a; apply Fin.ext
  match a with
  | ⟨0, _⟩ => show win0_1.index t (0 : Fin 2) * 256 + 1 * p.val = t.val / 16 * 256 + p.val; omega
  | ⟨1, _⟩ => show win0_1.index t (1 : Fin 2) * 1 + 1 * 0 = 0; omega

/-- Window 2's block at point `t` holds rows `256 · (t / 16) …` of its one-column array. -/
theorem emb_col2 (t : Fin cfg0.N) (ht : t.val < 64) (p : Fin 256) :
    ((cfg0.win 2).blk t).view.emb (ix2 p (0 : Fin 1)) = ix2 (⟨t.val / 16 * 256 + p.val, by omega⟩ : Fin 1024) (0 : Fin 1) := by
  obtain ⟨e00, e01, e10, e11, e20, e21, e30, e31, e40, e41, e50, e51, e60, e61, e70, e71, e80, e81⟩ := grid_position t
  funext a; apply Fin.ext
  match a with
  | ⟨0, _⟩ => show win0_2.index t (0 : Fin 2) * 256 + 1 * p.val = t.val / 16 * 256 + p.val; omega
  | ⟨1, _⟩ => show win0_2.index t (1 : Fin 2) * 1 + 1 * 0 = 0; omega

/-- Window 3's block at point `t` holds rows `256 · (t / 16) …` of its one-column array. -/
theorem emb_col3 (t : Fin cfg0.N) (ht : t.val < 64) (p : Fin 256) :
    ((cfg0.win 3).blk t).view.emb (ix2 p (0 : Fin 1)) = ix2 (⟨t.val / 16 * 256 + p.val, by omega⟩ : Fin 1024) (0 : Fin 1) := by
  obtain ⟨e00, e01, e10, e11, e20, e21, e30, e31, e40, e41, e50, e51, e60, e61, e70, e71, e80, e81⟩ := grid_position t
  funext a; apply Fin.ext
  match a with
  | ⟨0, _⟩ => show win0_3.index t (0 : Fin 2) * 256 + 1 * p.val = t.val / 16 * 256 + p.val; omega
  | ⟨1, _⟩ => show win0_3.index t (1 : Fin 2) * 1 + 1 * 0 = 0; omega

/-- Window 4's block at point `t` holds rows `256 · (t / 16) …` of its one-column array. -/
theorem emb_col4 (t : Fin cfg0.N) (ht : t.val < 64) (p : Fin 256) :
    ((cfg0.win 4).blk t).view.emb (ix2 p (0 : Fin 1)) = ix2 (⟨t.val / 16 * 256 + p.val, by omega⟩ : Fin 1024) (0 : Fin 1) := by
  obtain ⟨e00, e01, e10, e11, e20, e21, e30, e31, e40, e41, e50, e51, e60, e61, e70, e71, e80, e81⟩ := grid_position t
  funext a; apply Fin.ext
  match a with
  | ⟨0, _⟩ => show win0_4.index t (0 : Fin 2) * 256 + 1 * p.val = t.val / 16 * 256 + p.val; omega
  | ⟨1, _⟩ => show win0_4.index t (1 : Fin 2) * 1 + 1 * 0 = 0; omega

/-- Window 5's block at point `t` holds rows `256 · (t / 16) …` of its one-column array. -/
theorem emb_col5 (t : Fin cfg0.N) (ht : t.val < 64) (p : Fin 256) :
    ((cfg0.win 5).blk t).view.emb (ix2 p (0 : Fin 1)) = ix2 (⟨t.val / 16 * 256 + p.val, by omega⟩ : Fin 1024) (0 : Fin 1) := by
  obtain ⟨e00, e01, e10, e11, e20, e21, e30, e31, e40, e41, e50, e51, e60, e61, e70, e71, e80, e81⟩ := grid_position t
  funext a; apply Fin.ext
  match a with
  | ⟨0, _⟩ => show win0_5.index t (0 : Fin 2) * 256 + 1 * p.val = t.val / 16 * 256 + p.val; omega
  | ⟨1, _⟩ => show win0_5.index t (1 : Fin 2) * 1 + 1 * 0 = 0; omega

/-- The radius column's block. -/
theorem radius_blk (c : Dev nD) (t : Fin cfg0.N) (ht : t.val < 64) (p : Fin 256) :
    iblk m c 1 t (ix2 p (0 : Fin 1)) = (argR m c) (ix2 (⟨t.val / 16 * 256 + p.val, by omega⟩ : Fin 1024) (0 : Fin 1)) := by
  show V m c main_arg1 (((cfg0.win 1).blk t).view.emb (ix2 p (0 : Fin 1))) = _
  rw [emb_col1 t ht p, V_main_arg1]

/-- The initial angle column's block. -/
theorem angle0_blk (c : Dev nD) (t : Fin cfg0.N) (ht : t.val < 64) (p : Fin 256) :
    iblk m c 2 t (ix2 p (0 : Fin 1)) = (argTh m c) (ix2 (⟨t.val / 16 * 256 + p.val, by omega⟩ : Fin 1024) (0 : Fin 1)) := by
  show V m c main_arg2 (((cfg0.win 2).blk t).view.emb (ix2 p (0 : Fin 1))) = _
  rw [emb_col2 t ht p, V_main_arg2]

/-- The angular velocity column's block. -/
theorem omega_blk (c : Dev nD) (t : Fin cfg0.N) (ht : t.val < 64) (p : Fin 256) :
    iblk m c 3 t (ix2 p (0 : Fin 1)) = (argW m c) (ix2 (⟨t.val / 16 * 256 + p.val, by omega⟩ : Fin 1024) (0 : Fin 1)) := by
  show V m c main_arg3 (((cfg0.win 3).blk t).view.emb (ix2 p (0 : Fin 1))) = _
  rw [emb_col3 t ht p, V_main_arg3]

/-- The block of the column of products `r · w`. -/
theorem rw_blk (c : Dev nD) (t : Fin cfg0.N) (ht : t.val < 64) (p : Fin 256) :
    iblk m c 4 t (ix2 p (0 : Fin 1)) = (argR m c) (ix2 (⟨t.val / 16 * 256 + p.val, by omega⟩ : Fin 1024) (0 : Fin 1)) * (argW m c) (ix2 (⟨t.val / 16 * 256 + p.val, by omega⟩ : Fin 1024) (0 : Fin 1)) := by
  show V m c main_v1 (((cfg0.win 4).blk t).view.emb (ix2 p (0 : Fin 1))) = _
  rw [emb_col4 t ht p, V_main_v1, mulf_apply]

/-- The block of the column of products `(r · w) · w`. -/
theorem rww_blk (c : Dev nD) (t : Fin cfg0.N) (ht : t.val < 64) (p : Fin 256) :
    iblk m c 5 t (ix2 p (0 : Fin 1)) = (argR m c) (ix2 (⟨t.val / 16 * 256 + p.val, by omega⟩ : Fin 1024) (0 : Fin 1)) * (argW m c) (ix2 (⟨t.val / 16 * 256 + p.val, by omega⟩ : Fin 1024) (0 : Fin 1)) * (argW m c) (ix2 (⟨t.val / 16 * 256 + p.val, by omega⟩ : Fin 1024) (0 : Fin 1)) := by
  show V m c main_v2 (((cfg0.win 5).blk t).view.emb (ix2 p (0 : Fin 1))) = _
  rw [emb_col5 t ht p, V_main_v2, mulf_apply, mulf_apply]

/-! ## Output window 6: position array -/

/-- WHAT POINT `t` WRITES BACK is block `t` of the position array in the interleaved layout. -/
theorem position_block (c : Dev nD) (t : Fin cfg0.N) :
    (dats m 0 c).flushed 6 t = ((cfg0.win 6).blk t).view.read (Elt Ideal) (flat (posAt (argT m c) (argR m c) (argTh m c) (argW m c))) := by
  show (cfg0.win 6).cut (grid0.coords t) ((dats m 0 c).after 6 t) = _
  rw [after0_6]
  unfold out0_6
  rw [View.canon_unit_zero zero_offsets]
  simp only [View.ld_unit_zero (S := S256x1024) zero_offsets, View.ld_unit_zero (S := S256x1) zero_offsets]
  have ht : t.val < 64 := point_lt t
  obtain ⟨e00, e01, e10, e11, e20, e21, e30, e31, e40, e41, e50, e51, e60, e61, e70, e71, e80, e81⟩ := grid_position t
  funext y
  exact pos_point (argT m c) (argR m c) (argTh m c) (argW m c) (iblk m c 0 t) (iblk m c 1 t) (iblk m c 2 t) (iblk m c 3 t) (t.val / 16) (t.val % 16) (by omega) (by omega)
    (fun p s => time_blk m c t ht p s) (fun p => radius_blk m c t ht p) (fun p => angle0_blk m c t ht p) (fun p => omega_blk m c t ht p)
    y (((cfg0.win 6).blk t).view.emb y)
    (by show win0_6.index t (0 : Fin 2) * 256 + 1 * (y 0).val = t.val / 16 * 256 + (y 0).val; omega)
    (by show win0_6.index t (1 : Fin 2) * 2048 + 1 * (y 1).val = t.val % 16 * 2048 + (y 1).val; omega)

/-- An index of the array is in point `t`'s block iff each coordinate is in the block's range on its axis. -/
theorem mem_position_block (t : Fin cfg0.N) (i : S1024x32768.Idx) :
    i ∈ ((cfg0.win 6).blk t).view.set ↔ ∀ a : Fin 2, win0_6.index t a * S256x2048.size a ≤ (i a).val ∧ (i a).val < win0_6.index t a * S256x2048.size a + S256x2048.size a := by
  show i ∈ ((View.whole main_v3_0).slice (win0_6.rect t)).set ↔ _
  rw [View.set_slice_whole, Rect.mem_set_unit]
  exact Iff.rfl

/-- Every index is in the block of the point at grid position (row / 256, column / 2048). -/
theorem position_cover (i : S1024x32768.Idx) :
    ∃ t : Fin cfg0.N, (cfg0.win 6).flush t = true ∧ i ∈ ((cfg0.win 6).blk t).view.set := by
  have hi0 : (i 0).val < 1024 := (i 0).isLt
  have hi1 : (i 1).val < 32768 := (i 1).isLt
  obtain ⟨t, htv⟩ : ∃ t : Fin cfg0.N, t.val = (i 0).val / 256 * 16 + (i 1).val / 2048 :=
    ⟨⟨(i 0).val / 256 * 16 + (i 1).val / 2048, by rw [show cfg0.N = 64 from N_0]; omega⟩, rfl⟩
  obtain ⟨e00, e01, e10, e11, e20, e21, e30, e31, e40, e41, e50, e51, e60, e61, e70, e71, e80, e81⟩ := grid_position t
  refine ⟨t, flush0_6 t, ?_⟩
  rw [mem_position_block]
  intro a
  match a with
  | ⟨0, _⟩ => show win0_6.index t (0 : Fin 2) * 256 ≤ (i 0).val ∧ (i 0).val < win0_6.index t (0 : Fin 2) * 256 + 256; omega
  | ⟨1, _⟩ => show win0_6.index t (1 : Fin 2) * 2048 ≤ (i 1).val ∧ (i 1).val < win0_6.index t (1 : Fin 2) * 2048 + 2048; omega

/-- THE ARRAY after the region: the position array in the interleaved layout. -/
theorem position_array (c : Dev nD) :
    (dats m 0 c).arrAt 6 cfg0.N = flat (posAt (argT m c) (argR m c) (argTh m c) (argW m c)) :=
  (dats m 0 c).arrAt_eq_of_cover 6 _ (fun t _ => position_block m c t) position_cover

/-! ## Output window 7: velocity array -/

/-- WHAT POINT `t` WRITES BACK is block `t` of the velocity array in the interleaved layout. -/
theorem velocity_block (c : Dev nD) (t : Fin cfg0.N) :
    (dats m 0 c).flushed 7 t = ((cfg0.win 7).blk t).view.read (Elt Ideal) (flat (velAt (argT m c) (argR m c) (argTh m c) (argW m c))) := by
  show (cfg0.win 7).cut (grid0.coords t) ((dats m 0 c).after 7 t) = _
  rw [after0_7]
  unfold out0_7
  rw [View.canon_unit_zero zero_offsets]
  simp only [View.ld_unit_zero (S := S256x1024) zero_offsets, View.ld_unit_zero (S := S256x1) zero_offsets]
  have ht : t.val < 64 := point_lt t
  obtain ⟨e00, e01, e10, e11, e20, e21, e30, e31, e40, e41, e50, e51, e60, e61, e70, e71, e80, e81⟩ := grid_position t
  funext y
  exact vel_point (argT m c) (argR m c) (argTh m c) (argW m c) (iblk m c 0 t) (iblk m c 2 t) (iblk m c 3 t) (iblk m c 4 t) (t.val / 16) (t.val % 16) (by omega) (by omega)
    (fun p s => time_blk m c t ht p s) (fun p => angle0_blk m c t ht p) (fun p => omega_blk m c t ht p) (fun p => rw_blk m c t ht p)
    y (((cfg0.win 7).blk t).view.emb y)
    (by show win0_7.index t (0 : Fin 2) * 256 + 1 * (y 0).val = t.val / 16 * 256 + (y 0).val; omega)
    (by show win0_7.index t (1 : Fin 2) * 2048 + 1 * (y 1).val = t.val % 16 * 2048 + (y 1).val; omega)

/-- An index of the array is in point `t`'s block iff each coordinate is in the block's range on its axis. -/
theorem mem_velocity_block (t : Fin cfg0.N) (i : S1024x32768.Idx) :
    i ∈ ((cfg0.win 7).blk t).view.set ↔ ∀ a : Fin 2, win0_7.index t a * S256x2048.size a ≤ (i a).val ∧ (i a).val < win0_7.index t a * S256x2048.size a + S256x2048.size a := by
  show i ∈ ((View.whole main_v3_1).slice (win0_7.rect t)).set ↔ _
  rw [View.set_slice_whole, Rect.mem_set_unit]
  exact Iff.rfl

/-- Every index is in the block of the point at grid position (row / 256, column / 2048). -/
theorem velocity_cover (i : S1024x32768.Idx) :
    ∃ t : Fin cfg0.N, (cfg0.win 7).flush t = true ∧ i ∈ ((cfg0.win 7).blk t).view.set := by
  have hi0 : (i 0).val < 1024 := (i 0).isLt
  have hi1 : (i 1).val < 32768 := (i 1).isLt
  obtain ⟨t, htv⟩ : ∃ t : Fin cfg0.N, t.val = (i 0).val / 256 * 16 + (i 1).val / 2048 :=
    ⟨⟨(i 0).val / 256 * 16 + (i 1).val / 2048, by rw [show cfg0.N = 64 from N_0]; omega⟩, rfl⟩
  obtain ⟨e00, e01, e10, e11, e20, e21, e30, e31, e40, e41, e50, e51, e60, e61, e70, e71, e80, e81⟩ := grid_position t
  refine ⟨t, flush0_7 t, ?_⟩
  rw [mem_velocity_block]
  intro a
  match a with
  | ⟨0, _⟩ => show win0_7.index t (0 : Fin 2) * 256 ≤ (i 0).val ∧ (i 0).val < win0_7.index t (0 : Fin 2) * 256 + 256; omega
  | ⟨1, _⟩ => show win0_7.index t (1 : Fin 2) * 2048 ≤ (i 1).val ∧ (i 1).val < win0_7.index t (1 : Fin 2) * 2048 + 2048; omega

/-- THE ARRAY after the region: the velocity array in the interleaved layout. -/
theorem velocity_array (c : Dev nD) :
    (dats m 0 c).arrAt 7 cfg0.N = flat (velAt (argT m c) (argR m c) (argTh m c) (argW m c)) :=
  (dats m 0 c).arrAt_eq_of_cover 7 _ (fun t _ => velocity_block m c t) velocity_cover

/-! ## Output window 8: acceleration array -/

/-- WHAT POINT `t` WRITES BACK is block `t` of the acceleration array in the interleaved layout. -/
theorem acceleration_block (c : Dev nD) (t : Fin cfg0.N) :
    (dats m 0 c).flushed 8 t = ((cfg0.win 8).blk t).view.read (Elt Ideal) (flat (accAt (argT m c) (argR m c) (argTh m c) (argW m c))) := by
  show (cfg0.win 8).cut (grid0.coords t) ((dats m 0 c).after 8 t) = _
  rw [after0_8]
  unfold out0_8
  rw [View.canon_unit_zero zero_offsets]
  simp only [View.ld_unit_zero (S := S256x1024) zero_offsets, View.ld_unit_zero (S := S256x1) zero_offsets]
  have ht : t.val < 64 := point_lt t
  obtain ⟨e00, e01, e10, e11, e20, e21, e30, e31, e40, e41, e50, e51, e60, e61, e70, e71, e80, e81⟩ := grid_position t
  funext y
  exact acc_point (argT m c) (argR m c) (argTh m c) (argW m c) (iblk m c 0 t) (iblk m c 2 t) (iblk m c 3 t) (iblk m c 5 t) (t.val / 16) (t.val % 16) (by omega) (by omega)
    (fun p s => time_blk m c t ht p s) (fun p => angle0_blk m c t ht p) (fun p => omega_blk m c t ht p) (fun p => rww_blk m c t ht p)
    y (((cfg0.win 8).blk t).view.emb y)
    (by show win0_8.index t (0 : Fin 2) * 256 + 1 * (y 0).val = t.val / 16 * 256 + (y 0).val; omega)
    (by show win0_8.index t (1 : Fin 2) * 2048 + 1 * (y 1).val = t.val % 16 * 2048 + (y 1).val; omega)

/-- An index of the array is in point `t`'s block iff each coordinate is in the block's range on its axis. -/
theorem mem_acceleration_block (t : Fin cfg0.N) (i : S1024x32768.Idx) :
    i ∈ ((cfg0.win 8).blk t).view.set ↔ ∀ a : Fin 2, win0_8.index t a * S256x2048.size a ≤ (i a).val ∧ (i a).val < win0_8.index t a * S256x2048.size a + S256x2048.size a := by
  show i ∈ ((View.whole main_v3_2).slice (win0_8.rect t)).set ↔ _
  rw [View.set_slice_whole, Rect.mem_set_unit]
  exact Iff.rfl

/-- Every index is in the block of the point at grid position (row / 256, column / 2048). -/
theorem acceleration_cover (i : S1024x32768.Idx) :
    ∃ t : Fin cfg0.N, (cfg0.win 8).flush t = true ∧ i ∈ ((cfg0.win 8).blk t).view.set := by
  have hi0 : (i 0).val < 1024 := (i 0).isLt
  have hi1 : (i 1).val < 32768 := (i 1).isLt
  obtain ⟨t, htv⟩ : ∃ t : Fin cfg0.N, t.val = (i 0).val / 256 * 16 + (i 1).val / 2048 :=
    ⟨⟨(i 0).val / 256 * 16 + (i 1).val / 2048, by rw [show cfg0.N = 64 from N_0]; omega⟩, rfl⟩
  obtain ⟨e00, e01, e10, e11, e20, e21, e30, e31, e40, e41, e50, e51, e60, e61, e70, e71, e80, e81⟩ := grid_position t
  refine ⟨t, flush0_8 t, ?_⟩
  rw [mem_acceleration_block]
  intro a
  match a with
  | ⟨0, _⟩ => show win0_8.index t (0 : Fin 2) * 256 ≤ (i 0).val ∧ (i 0).val < win0_8.index t (0 : Fin 2) * 256 + 256; omega
  | ⟨1, _⟩ => show win0_8.index t (1 : Fin 2) * 2048 ≤ (i 1).val ∧ (i 1).val < win0_8.index t (1 : Fin 2) * 2048 + 2048; omega

/-- THE ARRAY after the region: the acceleration array in the interleaved layout. -/
theorem acceleration_array (c : Dev nD) :
    (dats m 0 c).arrAt 8 cfg0.N = flat (accAt (argT m c) (argR m c) (argTh m c) (argW m c)) :=
  (dats m 0 c).arrAt_eq_of_cover 8 _ (fun t _ => acceleration_block m c t) acceleration_cover

end Cert.KernelIdeal.Blocks

end
-- ==== Proof.KernelRun.lean ====
/-
  The whole kernel program: the three results as functions of the arguments.

  After the region the three [1024, 32768] arrays hold position, velocity and acceleration in the interleaved layout;
  the host then splits the long axis of each into (time, component), which gives the three arrays by coordinates.
-/
import proofs.«136284_j14250701488835_2_alg».proof.Proof.KernelBlocks

noncomputable section

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.StableHlo
open Idealize.ShloMosaic.ValueIdx Cert.Motion Cert.KernelIdeal.Blocks

variable (m : (ℓ : Loc nD τ sig) → Buf (Elt Ideal) ℓ) (ρ : Dev nD → PrngReg)

/-- The first result: the position array's interleaved layout, split back. -/
theorem tail_v4 (c : Dev nD) :
    Pipeline.afterTail₀ cfgs (dats m) 0 (V0 m) [hostOps1] c main_v4 = (cube (posAt (argT m c) (argR m c) (argTh m c) (argW m c))) := by
  unfold Pipeline.afterTail₀
  show StableHlo.after hostOps1 _ (Proc.devRef .tc main_v4) = _
  after_results
  have hw : Pipeline.withArrays (cfgs 0).spec c (V0 m c) (fun w => (dats m 0 c).arrAt w (cfgs 0).N) (Proc.devRef .tc main_v3_0)
      = flat (posAt (argT m c) (argR m c) (argTh m c) (argW m c)) :=
    (Pipeline.withArrays_arr spec0 launch0.win.arr_inj c _ _ 6).trans (position_array m c)
  rw [hw]
  exact shapeCast_flat _ _

/-- The second result: the velocity array's interleaved layout, split back. -/
theorem tail_v5 (c : Dev nD) :
    Pipeline.afterTail₀ cfgs (dats m) 0 (V0 m) [hostOps1] c main_v5 = (cube (velAt (argT m c) (argR m c) (argTh m c) (argW m c))) := by
  unfold Pipeline.afterTail₀
  show StableHlo.after hostOps1 _ (Proc.devRef .tc main_v5) = _
  after_results
  have hw : Pipeline.withArrays (cfgs 0).spec c (V0 m c) (fun w => (dats m 0 c).arrAt w (cfgs 0).N) (Proc.devRef .tc main_v3_1)
      = flat (velAt (argT m c) (argR m c) (argTh m c) (argW m c)) :=
    (Pipeline.withArrays_arr spec0 launch0.win.arr_inj c _ _ 7).trans (velocity_array m c)
  rw [hw]
  exact shapeCast_flat _ _

/-- The third result: the acceleration array's interleaved layout, split back. -/
theorem tail_v6 (c : Dev nD) :
    Pipeline.afterTail₀ cfgs (dats m) 0 (V0 m) [hostOps1] c main_v6 = (cube (accAt (argT m c) (argR m c) (argTh m c) (argW m c))) := by
  unfold Pipeline.afterTail₀
  show StableHlo.after hostOps1 _ (Proc.devRef .tc main_v6) = _
  after_results
  have hw : Pipeline.withArrays (cfgs 0).spec c (V0 m c) (fun w => (dats m 0 c).arrAt w (cfgs 0).N) (Proc.devRef .tc main_v3_2)
      = flat (accAt (argT m c) (argR m c) (argTh m c) (argW m c)) :=
    (Pipeline.withArrays_arr spec0 launch0.win.arr_inj c _ _ 8).trans (acceleration_array m c)
  rw [hw]
  exact shapeCast_flat _ _

/-- No host operation after the region writes an argument: the three columns, staged by the region and never written
    back, and the time array, which bypasses it, end as launched. -/
theorem kept_arg0 (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0) :=
  ((h c).2 main_arg0 (Pipeline.mem_restRefs_of main_arg0 (by decide) (by decide))).trans (W_main_arg0 m (dats m) c)

theorem kept_arg1 (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_arg1) = m ((c.tc : Thread nD τ).loc main_arg1) :=
  ((h c).1 1).trans (((dats m 0 c).arrAt_in 1 rfl _).trans ((A_eq m c 1).trans (V_main_arg1 m c)))

theorem kept_arg2 (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_arg2) = m ((c.tc : Thread nD τ).loc main_arg2) :=
  ((h c).1 2).trans (((dats m 0 c).arrAt_in 2 rfl _).trans ((A_eq m c 2).trans (V_main_arg2 m c)))

theorem kept_arg3 (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_arg3) = m ((c.tc : Thread nD τ).loc main_arg3) :=
  ((h c).1 3).trans (((dats m 0 c).arrAt_in 3 rfl _).trans ((A_eq m c 3).trans (V_main_arg3 m c)))

/-- THE RUN: every weakly fair execution of the kernel program terminates with its three results at the position,
    velocity and acceleration arrays of the arguments, and the arguments unchanged. -/
theorem run : θ_run defs (onTc (τ := τ) (main (F := Ideal))) ⟨m, fun _ => 0, ρ⟩ fun r => ∀ c : Dev nD,
      r.2.mem ((c.tc : Thread nD τ).loc main_v4) = (cube (posAt (argT m c) (argR m c) (argTh m c) (argW m c)))
      ∧ r.2.mem ((c.tc : Thread nD τ).loc main_v5) = (cube (velAt (argT m c) (argR m c) (argTh m c) (argW m c)))
      ∧ r.2.mem ((c.tc : Thread nD τ).loc main_v6) = (cube (accAt (argT m c) (argR m c) (argTh m c) (argW m c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v4 (Pipeline.mem_restRefs_of main_v4 (by decide) (by decide))).trans (tail_v4 m c),
      ((h c).2 main_v5 (Pipeline.mem_restRefs_of main_v5 (by decide) (by decide))).trans (tail_v5 m c),
      ((h c).2 main_v6 (Pipeline.mem_restRefs_of main_v6 (by decide) (by decide))).trans (tail_v6 m c),
      kept_arg0 m r h c, kept_arg1 m r h c, kept_arg2 m r h c, kept_arg3 m r h c⟩)
    (run_main m ρ)

end Cert.KernelIdeal.Whole

end
-- ==== Proof.RefValue.lean ====
/-
  The reference, entry by entry, is the same motion.

  The reference spreads each of the three columns to [1024, 16384, 1], forms the angle `w · t + th`, its cosine and
  sine, scales them, and joins the two components along the last axis. Its signs sit on the radius: `(−r) · w` and
  `((−r) · w) · w`, which are `−(r · w)` and `−((r · w) · w)` on the extended reals.
-/
import proofs.«136284_j14250701488835_2_alg».proof.Proof.RefRead
import proofs.«136284_j14250701488835_2_alg».proof.Proof.Motion

noncomputable section

namespace Cert.ReferenceIdeal.RefValue

open Cert.ReferenceIdeal Cert.ReferenceIdeal.ReadP Idealize.ShloMosaic Idealize.ShloMosaic.ValueIdx
open Idealize.ShloMosaic.Interleave Cert.Motion

variable (x0 : S1024x16384x1.Idx → EReal) (x1 x2 x3 : S1024x1.Idx → EReal) (b : Fin 1024) (τ : Fin 16384)

/-- The angle at body `b`, time index `τ`. -/
theorem angle_at :
    val_main_v6 (F := Ideal) x0 x2 x3 (ix3 b τ (0 : Fin 1))
      = angle (x3 (ix2 b (0 : Fin 1))) (x0 (ix3 b τ (0 : Fin 1))) (x2 (ix2 b (0 : Fin 1))) := by
  rw [val_main_v6_apply, val_main_v4_apply, val_main_v3_apply, val_main_v2_apply, val_main_v5_apply, val_main_v1_apply]
  have e1 : idx_main_v2 (idx_main_v3 (ix3 b τ (0 : Fin 1))) = ix2 b (0 : Fin 1) :=
    funext fun a => match a with | ⟨0, _⟩ => rfl | ⟨1, _⟩ => rfl
  have e2 : idx_main_v1 (idx_main_v5 (ix3 b τ (0 : Fin 1))) = ix2 b (0 : Fin 1) :=
    funext fun a => match a with | ⟨0, _⟩ => rfl | ⟨1, _⟩ => rfl
  rw [e1, e2]
  rfl

/-- Its cosine. -/
theorem cos_at :
    val_main_v7 (F := Ideal) x0 x2 x3 (ix3 b τ (0 : Fin 1))
      = Ideal.cos (angle (x3 (ix2 b (0 : Fin 1))) (x0 (ix3 b τ (0 : Fin 1))) (x2 (ix2 b (0 : Fin 1)))) := by
  rw [val_main_v7_apply, angle_at]
  rfl

/-- Its sine. -/
theorem sin_at :
    val_main_v8 (F := Ideal) x0 x2 x3 (ix3 b τ (0 : Fin 1))
      = Ideal.sin (angle (x3 (ix2 b (0 : Fin 1))) (x0 (ix3 b τ (0 : Fin 1))) (x2 (ix2 b (0 : Fin 1)))) := by
  rw [val_main_v8_apply, angle_at]
  rfl

/-! ## Position -/

theorem pos0_at :
    val_main_v10 (F := Ideal) x0 x1 x2 x3 (ix3 b τ (0 : Fin 1)) = posAt x0 x1 x2 x3 b τ (0 : Fin 2) := by
  rw [val_main_v10_apply, val_main_v9_apply, val_main_v0_apply, cos_at]
  have e : idx_main_v0 (idx_main_v9 (ix3 b τ (0 : Fin 1))) = ix2 b (0 : Fin 1) :=
    funext fun a => match a with | ⟨0, _⟩ => rfl | ⟨1, _⟩ => rfl
  rw [e]
  rfl

theorem pos1_at :
    val_main_v12 (F := Ideal) x0 x1 x2 x3 (ix3 b τ (0 : Fin 1)) = posAt x0 x1 x2 x3 b τ (1 : Fin 2) := by
  rw [val_main_v12_apply, val_main_v11_apply, val_main_v0_apply, sin_at]
  have e : idx_main_v0 (idx_main_v11 (ix3 b τ (0 : Fin 1))) = ix2 b (0 : Fin 1) :=
    funext fun a => match a with | ⟨0, _⟩ => rfl | ⟨1, _⟩ => rfl
  rw [e]
  rfl

/-- The reference's first result is the position array. -/
theorem position_eq : val_main_v13 (F := Ideal) x0 x1 x2 x3 = cube (posAt x0 x1 x2 x3) := by
  funext i
  obtain ⟨b, τ, k, rfl⟩ : ∃ (b : Fin 1024) (τ : Fin 16384) (k : Fin 2), i = ix3 b τ k := ⟨i 0, i 1, i 2, eq_ix3 i⟩
  unfold val_main_v13
  rw [concatenate_ab1_ab1_apply, pos0_at, pos1_at]
  show _ = posAt x0 x1 x2 x3 b τ k
  by_cases hk : k.val = 0
  · rw [if_pos hk, show k = (0 : Fin 2) from Fin.ext hk]
  · rw [if_neg hk, show k = (1 : Fin 2) from Fin.ext (by have := k.isLt; show k.val = 1; omega)]

/-! ## Velocity -/

theorem vel0_at :
    val_main_v17 (F := Ideal) x0 x1 x2 x3 (ix3 b τ (0 : Fin 1)) = velAt x0 x1 x2 x3 b τ (0 : Fin 2) := by
  rw [val_main_v17_apply, val_main_v16_apply, val_main_v15_apply, val_main_v14_apply, val_main_v0_apply, val_main_v2_apply, sin_at]
  have e : idx_main_v0 (idx_main_v16 (ix3 b τ (0 : Fin 1))) = ix2 b (0 : Fin 1) :=
    funext fun a => match a with | ⟨0, _⟩ => rfl | ⟨1, _⟩ => rfl
  have e' : idx_main_v2 (idx_main_v16 (ix3 b τ (0 : Fin 1))) = ix2 b (0 : Fin 1) :=
    funext fun a => match a with | ⟨0, _⟩ => rfl | ⟨1, _⟩ => rfl
  rw [e, e']
  show -(x1 (ix2 b (0 : Fin 1))) * x3 (ix2 b (0 : Fin 1)) * _ = -(x1 (ix2 b (0 : Fin 1)) * x3 (ix2 b (0 : Fin 1))) * _
  rw [neg_mul_eq]

theorem vel1_at :
    val_main_v20 (F := Ideal) x0 x1 x2 x3 (ix3 b τ (0 : Fin 1)) = velAt x0 x1 x2 x3 b τ (1 : Fin 2) := by
  rw [val_main_v20_apply, val_main_v19_apply, val_main_v18_apply, val_main_v0_apply, val_main_v2_apply, cos_at]
  have e : idx_main_v0 (idx_main_v19 (ix3 b τ (0 : Fin 1))) = ix2 b (0 : Fin 1) :=
    funext fun a => match a with | ⟨0, _⟩ => rfl | ⟨1, _⟩ => rfl
  have e' : idx_main_v2 (idx_main_v19 (ix3 b τ (0 : Fin 1))) = ix2 b (0 : Fin 1) :=
    funext fun a => match a with | ⟨0, _⟩ => rfl | ⟨1, _⟩ => rfl
  rw [e, e']
  rfl

/-- The reference's second result is the velocity array. -/
theorem velocity_eq : val_main_v21 (F := Ideal) x0 x1 x2 x3 = cube (velAt x0 x1 x2 x3) := by
  funext i
  obtain ⟨b, τ, k, rfl⟩ : ∃ (b : Fin 1024) (τ : Fin 16384) (k : Fin 2), i = ix3 b τ k := ⟨i 0, i 1, i 2, eq_ix3 i⟩
  unfold val_main_v21
  rw [concatenate_ab1_ab1_apply, vel0_at, vel1_at]
  show _ = velAt x0 x1 x2 x3 b τ k
  by_cases hk : k.val = 0
  · rw [if_pos hk, show k = (0 : Fin 2) from Fin.ext hk]
  · rw [if_neg hk, show k = (1 : Fin 2) from Fin.ext (by have := k.isLt; show k.val = 1; omega)]

/-! ## Acceleration -/

theorem acc0_at :
    val_main_v26 (F := Ideal) x0 x1 x2 x3 (ix3 b τ (0 : Fin 1)) = accAt x0 x1 x2 x3 b τ (0 : Fin 2) := by
  rw [val_main_v26_apply, val_main_v25_apply, val_main_v24_apply, val_main_v23_apply, val_main_v22_apply, val_main_v0_apply,
    val_main_v2_apply, cos_at]
  have e : idx_main_v0 (idx_main_v25 (ix3 b τ (0 : Fin 1))) = ix2 b (0 : Fin 1) :=
    funext fun a => match a with | ⟨0, _⟩ => rfl | ⟨1, _⟩ => rfl
  have e' : idx_main_v2 (idx_main_v25 (ix3 b τ (0 : Fin 1))) = ix2 b (0 : Fin 1) :=
    funext fun a => match a with | ⟨0, _⟩ => rfl | ⟨1, _⟩ => rfl
  rw [e, e']
  show -(x1 (ix2 b (0 : Fin 1))) * x3 (ix2 b (0 : Fin 1)) * x3 (ix2 b (0 : Fin 1)) * _
    = -(x1 (ix2 b (0 : Fin 1)) * x3 (ix2 b (0 : Fin 1)) * x3 (ix2 b (0 : Fin 1))) * _
  rw [neg_mul_mul_eq]

theorem acc1_at :
    val_main_v31 (F := Ideal) x0 x1 x2 x3 (ix3 b τ (0 : Fin 1)) = accAt x0 x1 x2 x3 b τ (1 : Fin 2) := by
  rw [val_main_v31_apply, val_main_v30_apply, val_main_v29_apply, val_main_v28_apply, val_main_v27_apply, val_main_v0_apply,
    val_main_v2_apply, sin_at]
  have e : idx_main_v0 (idx_main_v30 (ix3 b τ (0 : Fin 1))) = ix2 b (0 : Fin 1) :=
    funext fun a => match a with | ⟨0, _⟩ => rfl | ⟨1, _⟩ => rfl
  have e' : idx_main_v2 (idx_main_v30 (ix3 b τ (0 : Fin 1))) = ix2 b (0 : Fin 1) :=
    funext fun a => match a with | ⟨0, _⟩ => rfl | ⟨1, _⟩ => rfl
  rw [e, e']
  show -(x1 (ix2 b (0 : Fin 1))) * x3 (ix2 b (0 : Fin 1)) * x3 (ix2 b (0 : Fin 1)) * _
    = -(x1 (ix2 b (0 : Fin 1)) * x3 (ix2 b (0 : Fin 1)) * x3 (ix2 b (0 : Fin 1))) * _
  rw [neg_mul_mul_eq]

/-- The reference's third result is the acceleration array. -/
theorem acceleration_eq : val_main_v32 (F := Ideal) x0 x1 x2 x3 = cube (accAt x0 x1 x2 x3) := by
  funext i
  obtain ⟨b, τ, k, rfl⟩ : ∃ (b : Fin 1024) (τ : Fin 16384) (k : Fin 2), i = ix3 b τ k := ⟨i 0, i 1, i 2, eq_ix3 i⟩
  unfold val_main_v32
  rw [concatenate_ab1_ab1_apply, acc0_at, acc1_at]
  show _ = accAt x0 x1 x2 x3 b τ k
  by_cases hk : k.val = 0
  · rw [if_pos hk, show k = (0 : Fin 2) from Fin.ext hk]
  · rw [if_neg hk, show k = (1 : Fin 2) from Fin.ext (by have := k.isLt; show k.val = 1; omega)]

end Cert.ReferenceIdeal.RefValue

end
-- ==== Proof.lean ====
/- Uniform circular motion, sampled: for 1024 bodies and 16384 times each, position `r · (cos θ, sin θ)`, velocity
   `(r · w) · (−sin θ, cos θ)` and acceleration `−((r · w) · w) · (cos θ, sin θ)` at the angle `θ = w · t + th`.

   The kernel works on blocks of 256 bodies × 1024 times, interleaves the two components of each result along the time
   axis inside the block, and the host splits that axis back; the reference computes the three arrays whole and joins
   the components along a last axis. Read on the extended reals both programs end with the same three arrays, entry by
   entry: the kernel's side is Proof/KernelBody.lean (one stored block, entry by entry), Proof/KernelBlocks.lean (the
   blocks tile the arrays) and Proof/KernelRun.lean (the host's split, and the run); the reference's side is
   Proof/RefValue.lean; the common statement is Proof/Motion.lean. The two differ only in where a minus sign sits in a
   product, which is no difference on the extended reals, so the inputs' finiteness is never used. The idealization
   rewrote nothing, so the kernel as printed and its idealization are the same text read at two instances. -/
import proofs.«136284_j14250701488835_2_alg».proof.Defs
import proofs.«136284_j14250701488835_2_alg».proof.Proof.Gen.Kernel
import proofs.«136284_j14250701488835_2_alg».proof.Proof.Gen.Kernel.Skeleton
import proofs.«136284_j14250701488835_2_alg».proof.Proof.Gen.Kernel.Launch
import proofs.«136284_j14250701488835_2_alg».proof.Proof.Gen.Kernel.Points
import proofs.«136284_j14250701488835_2_alg».proof.Proof.Gen.Kernel.Frame
import proofs.«136284_j14250701488835_2_alg».proof.Proof.Gen.KernelIdeal
import proofs.«136284_j14250701488835_2_alg».proof.Proof.Gen.KernelIdeal.Skeleton
import proofs.«136284_j14250701488835_2_alg».proof.Proof.Gen.KernelIdeal.Launch
import proofs.«136284_j14250701488835_2_alg».proof.Proof.Gen.KernelIdeal.Points
import proofs.«136284_j14250701488835_2_alg».proof.Proof.Gen.KernelIdeal.Frame
import proofs.«136284_j14250701488835_2_alg».proof.Proof.Gen.ReferenceIdeal
import proofs.«136284_j14250701488835_2_alg».proof.Proof.Gen.Pre_finite_inputs
import proofs.«136284_j14250701488835_2_alg».proof.Proof.KernelRun
import proofs.«136284_j14250701488835_2_alg».proof.Proof.RefValue
import Idealize.ShloMosaic.Adequacy
import Idealize.ShloMosaic.Init

noncomputable section

namespace Cert.Proof

open Idealize.ShloMosaic Idealize.SL.Sem Cert.Motion

/-- The kernel as printed runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as launched: its run with the three results dropped. -/
theorem frame_reference : Cert.frame_ReferenceIdeal := fun m ρ _ =>
  (θ_run Cert.ReferenceIdeal.defs _ _).mono (fun _ h c => (h c).2.2.2) (Cert.ReferenceIdeal.ValueP.run (F := Ideal) m ρ)

/-- The idealization rewrote no operation. -/
theorem preserves : Cert.preserves_Kernel_KernelIdeal := trivial

/-- From memories that agree on the four arguments, both programs end with the position, velocity and acceleration
    arrays of those arguments. -/
theorem algebraic : Cert.algebraic_KernelIdeal_ReferenceIdeal := by
  intro m ρ m' ρ' _ hagree
  refine ⟨fun c => cube (posAt (Cert.KernelIdeal.Blocks.argT m c) (Cert.KernelIdeal.Blocks.argR m c) (Cert.KernelIdeal.Blocks.argTh m c) (Cert.KernelIdeal.Blocks.argW m c)),
    fun c => cube (velAt (Cert.KernelIdeal.Blocks.argT m c) (Cert.KernelIdeal.Blocks.argR m c) (Cert.KernelIdeal.Blocks.argTh m c) (Cert.KernelIdeal.Blocks.argW m c)),
    fun c => cube (accAt (Cert.KernelIdeal.Blocks.argT m c) (Cert.KernelIdeal.Blocks.argR m c) (Cert.KernelIdeal.Blocks.argTh m c) (Cert.KernelIdeal.Blocks.argW m c)),
    Cert.KernelIdeal.Whole.run m ρ, ?_⟩
  refine (θ_run Cert.ReferenceIdeal.defs _ _).mono (fun _ h c => ⟨?_, ?_, ?_, (h c).2.2.2⟩)
    (Cert.ReferenceIdeal.ValueP.run (F := Ideal) m' ρ')
  · rw [(h c).1, Cert.ReferenceIdeal.ReadP.val_main_v13_eq, Cert.ReferenceIdeal.RefValue.position_eq,
      (hagree c).1, (hagree c).2.1, (hagree c).2.2.1, (hagree c).2.2.2]
  · rw [(h c).2.1, Cert.ReferenceIdeal.ReadP.val_main_v21_eq, Cert.ReferenceIdeal.RefValue.velocity_eq,
      (hagree c).1, (hagree c).2.1, (hagree c).2.2.1, (hagree c).2.2.2]
  · rw [(h c).2.2.1, Cert.ReferenceIdeal.ReadP.val_main_v32_eq, Cert.ReferenceIdeal.RefValue.acceleration_eq,
      (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
